-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 98
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x1, .f32⟩
  | .hbm, ⟨72, _⟩ => ⟨S1700000x128, .f32⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S_, .f32⟩
  | .hbm, ⟨81, _⟩ => ⟨S64x128, .f32⟩
  | .hbm, ⟨82, _⟩ => ⟨S100000x1, .i32⟩
  | .hbm, ⟨83, _⟩ => ⟨S64x128, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S64, .f32⟩
  | .hbm, ⟨88, _⟩ => ⟨S100000x1, .i32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64x1, .f32⟩
  | .hbm, ⟨94, _⟩ => ⟨S64x128, .f32⟩
  | .hbm, ⟨95, _⟩ => ⟨S64x128, .f32⟩
  | .hbm, ⟨96, _⟩ => ⟨S1x128, .f32⟩
  | .hbm, ⟨97, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S64x128, .f32⟩
  | .local _ .vmem, ⟨21, _⟩ => ⟨S128x128, .f32⟩
  | .local _ .vmem, ⟨22, _⟩ => ⟨S1x128, .f32⟩
  | .local _ .vmem, ⟨23, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S64x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000x128, .f32⟩
  | 52 => ⟨S1700000x1, .f32⟩
  | 53 => ⟨S1700000x128, .f32⟩
  | 54 => ⟨S1700000x128, .f32⟩
  | 55 => ⟨S_, .f32⟩
  | 56 => ⟨S100000x128, .f32⟩
  | 57 => ⟨S1700000x1, .i32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x128, .f32⟩
  | 66 => ⟨S_, .f32⟩
  | 67 => ⟨S1700000, .f32⟩
  | 68 => ⟨S_, .f32⟩
  | 69 => ⟨S100000, .f32⟩
  | 70 => ⟨S1700000x1, .i32⟩
  | 71 => ⟨S100000, .f32⟩
  | 72 => ⟨S100000, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000, .f32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x128, .f32⟩
  | 101 => ⟨S1700000x1, .f32⟩
  | 102 => ⟨S1700000x128, .f32⟩
  | 103 => ⟨S1700000x128, .f32⟩
  | 104 => ⟨S_, .f32⟩
  | 105 => ⟨S100000x128, .f32⟩
  | 106 => ⟨S1700000x1, .i32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S_, .f32⟩
  | 115 => ⟨S64x128, .f32⟩
  | 116 => ⟨S100000x1, .i32⟩
  | 117 => ⟨S64x128, .f32⟩
  | 118 => ⟨S_, .f32⟩
  | 119 => ⟨S100000, .f32⟩
  | 120 => ⟨S_, .f32⟩
  | 121 => ⟨S64, .f32⟩
  | 122 => ⟨S100000x1, .i32⟩
  | 123 => ⟨S64, .f32⟩
  | 124 => ⟨S_, .f32⟩
  | 125 => ⟨S64, .f32⟩
  | 126 => ⟨S64, .f32⟩
  | 127 => ⟨S64x1, .f32⟩
  | _ => ⟨S100000x128, .f32⟩

abbrev hbmTy0_1 (i : Nat) : BufTy := match i % 128 with
  | 0 => ⟨S64x128, .f32⟩
  | 1 => ⟨S64x128, .f32⟩
  | 2 => ⟨S64x128, .f32⟩
  | 3 => ⟨S1x128, .f32⟩
  | 4 => ⟨S64x128, .f32⟩
  | 5 => ⟨S64x128, .f32⟩
  | 6 => ⟨S_, .f32⟩
  | 7 => ⟨S64x128, .f32⟩
  | 8 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call1_cst : Ref sig .tc := ⟨.hbm, 111, rfl⟩
abbrev main_call1_v0 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call2_cst : Ref sig .tc := ⟨.hbm, 134, rfl⟩
abbrev main_call2_v0 : Ref sig .tc := ⟨.hbm, 135, rfl⟩
abbrev main_v99 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x128_S64x128_1_0_0_1_n_n_wf : DotDims.WF S64x128 S128x128 S64x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.KRun.lean ====
/-
  The idealized kernel's run with its result named. Every weakly fair execution of @main ends with the result
  array holding what the last boundary of the run holds there: @main is nine segments (four stretches of host
  operations and five pipelined regions), the contents of every buffer at each boundary are a fold from the
  launch memory, and the final state agrees with the last boundary on every buffer that outlives the regions —
  the result array among them. The arguments end as launched.
-/
import proofs.«177811_j28681791603240_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v72) = W9 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v72 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunValue

end
-- ==== Proof.Fold.lean ====
/-
  What the buffers that the kernel program only carries along hold at the boundaries of its run.

  The program is nine segments: host operations, the first matrix product, host operations, the bias-and-rectifier
  pass and the second matrix product, host operations, the second bias-and-rectifier pass, host operations, the
  final linear layer. The first stretch of host operations computes, from the edge list alone, the source and
  target ends of the edges with one self-loop per node appended, and each edge's weight
  rsqrt(deg(source)) * rsqrt(deg(target)); these are, operation for operation, the reference's own first stages.
  Later segments read them, and the argument arrays, long after they were written. No segment in between writes
  them: a region writes only its own output array, a stretch of host operations only its own results. So at every
  boundary where one of them is read it still holds what it held when it was written (for an argument: what
  it held at launch).
-/
import proofs.«177811_j28681791603240_1_alg».proof.Proof.Gen.KernelIdeal.Frame
import proofs.«177811_j28681791603240_1_alg».proof.Proof.Gen.ReferenceIdeal.Read
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## A buffer a segment does not write keeps its contents across it -/

section Keep
variable (b : Ref sig .tc)

/-- Across the first matrix product (it writes only its own arrays). -/
theorem over_region0 (h : ∀ w, Pipeline.arrRef spec0 w ≠ b) {v : Buf (Elt Ideal) ((c : Thread nD τ).loc b)}
    (e : W1 m ρ c (Proc.devRef .tc b) = v) : W2 m ρ c (Proc.devRef .tc b) = v := (W2_of_ne m ρ c b h).trans e
/-- Across the first bias-and-rectifier pass. -/
theorem over_region1 (h : ∀ w, Pipeline.arrRef spec1 w ≠ b) {v : Buf (Elt Ideal) ((c : Thread nD τ).loc b)}
    (e : W3 m ρ c (Proc.devRef .tc b) = v) : W4 m ρ c (Proc.devRef .tc b) = v := (W4_of_ne m ρ c b h).trans e
/-- Across the second matrix product. -/
theorem over_region2 (h : ∀ w, Pipeline.arrRef spec2 w ≠ b) {v : Buf (Elt Ideal) ((c : Thread nD τ).loc b)}
    (e : W4 m ρ c (Proc.devRef .tc b) = v) : W5 m ρ c (Proc.devRef .tc b) = v := (W5_of_ne m ρ c b h).trans e
/-- Across the second bias-and-rectifier pass. -/
theorem over_region3 (h : ∀ w, Pipeline.arrRef spec3 w ≠ b) {v : Buf (Elt Ideal) ((c : Thread nD τ).loc b)}
    (e : W6 m ρ c (Proc.devRef .tc b) = v) : W7 m ρ c (Proc.devRef .tc b) = v := (W7_of_ne m ρ c b h).trans e
/-- Across the host operations between the first matrix product and the first bias-and-rectifier pass. -/
theorem over_host1 (h : StableHlo.after hostOps1 (W2 m ρ c) (Proc.devRef .tc b) = W2 m ρ c (Proc.devRef .tc b))
    {v : Buf (Elt Ideal) ((c : Thread nD τ).loc b)} (e : W2 m ρ c (Proc.devRef .tc b) = v) : W3 m ρ c (Proc.devRef .tc b) = v := h.trans e
/-- Across the host operations between the second matrix product and the second bias-and-rectifier pass. -/
theorem over_host3 (h : StableHlo.after hostOps3 (W5 m ρ c) (Proc.devRef .tc b) = W5 m ρ c (Proc.devRef .tc b))
    {v : Buf (Elt Ideal) ((c : Thread nD τ).loc b)} (e : W5 m ρ c (Proc.devRef .tc b) = v) : W6 m ρ c (Proc.devRef .tc b) = v := h.trans e
/-- Across the host operations before the final linear layer. -/
theorem over_host4 (h : StableHlo.after hostOps4 (W7 m ρ c) (Proc.devRef .tc b) = W7 m ρ c (Proc.devRef .tc b))
    {v : Buf (Elt Ideal) ((c : Thread nD τ).loc b)} (e : W7 m ρ c (Proc.devRef .tc b) = v) : W8 m ρ c (Proc.devRef .tc b) = v := h.trans e

end Keep

/-! ## After the first stretch of host operations -/

/-- The source ends of the edges, the self-loops appended: the reference's stage, operation for operation. -/
theorem src1 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl
/-- The target ends of the edges, the self-loops appended. -/
theorem dst1 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp <;> rfl
/-- Each edge's weight rsqrt(deg(source)) * rsqrt(deg(target)), the degree counted over the target ends. -/
theorem norm1 : W1 m ρ c (Proc.devRef .tc main_v26) = Cert.ReferenceIdeal.Read.val_main_v27 (F := Ideal) (m ((c : Thread nD τ).loc main_arg1)) := by
  show StableHlo.after hostOps0 (W0 m ρ c) (Proc.devRef .tc main_v26) = _
  after_results_simp <;> rfl
/-- Argument 0 is not written by the first stretch. -/
theorem arg0_1 : W1 m ρ c (Proc.devRef .tc main_arg0) = m ((c : Thread nD τ).loc main_arg0) := by
  show StableHlo.after hostOps0 (W0 m ρ c) (Proc.devRef .tc main_arg0) = _
  after_results_simp <;> rfl
/-- Argument 2 is not written by the first stretch. -/
theorem arg2_1 : W1 m ρ c (Proc.devRef .tc main_arg2) = m ((c : Thread nD τ).loc main_arg2) := by
  show StableHlo.after hostOps0 (W0 m ρ c) (Proc.devRef .tc main_arg2) = _
  after_results_simp <;> rfl
/-- Argument 3 is not written by the first stretch. -/
theorem arg3_1 : W1 m ρ c (Proc.devRef .tc main_arg3) = m ((c : Thread nD τ).loc main_arg3) := by
  show StableHlo.after hostOps0 (W0 m ρ c) (Proc.devRef .tc main_arg3) = _
  after_results_simp <;> rfl
/-- Argument 4 is not written by the first stretch. -/
theorem arg4_1 : W1 m ρ c (Proc.devRef .tc main_arg4) = m ((c : Thread nD τ).loc main_arg4) := by
  show StableHlo.after hostOps0 (W0 m ρ c) (Proc.devRef .tc main_arg4) = _
  after_results_simp <;> rfl
/-- Argument 5 is not written by the first stretch. -/
theorem arg5_1 : W1 m ρ c (Proc.devRef .tc main_arg5) = m ((c : Thread nD τ).loc main_arg5) := by
  show StableHlo.after hostOps0 (W0 m ρ c) (Proc.devRef .tc main_arg5) = _
  after_results_simp <;> rfl
/-- Argument 6 is not written by the first stretch. -/
theorem arg6_1 : W1 m ρ c (Proc.devRef .tc main_arg6) = m ((c : Thread nD τ).loc main_arg6) := by
  show StableHlo.after hostOps0 (W0 m ρ c) (Proc.devRef .tc main_arg6) = _
  after_results_simp <;> rfl
/-- Argument 7 is not written by the first stretch. -/
theorem arg7_1 : W1 m ρ c (Proc.devRef .tc main_arg7) = m ((c : Thread nD τ).loc main_arg7) := by
  show StableHlo.after hostOps0 (W0 m ρ c) (Proc.devRef .tc main_arg7) = _
  after_results_simp <;> rfl
/-- Argument 8 is not written by the first stretch. -/
theorem arg8_1 : W1 m ρ c (Proc.devRef .tc main_arg8) = m ((c : Thread nD τ).loc main_arg8) := by
  show StableHlo.after hostOps0 (W0 m ρ c) (Proc.devRef .tc main_arg8) = _
  after_results_simp <;> rfl

/-! ## Where they are read later -/

/-- Read by the first aggregation (after the first matrix product). -/
theorem src2 : W2 m ρ c (Proc.devRef .tc main_v3) = Cert.ReferenceIdeal.Read.val_main_v3 (F := Ideal) (m ((c : Thread nD τ).loc main_arg1)) :=
  over_region0 m ρ c main_v3 (by decide) (src1 m ρ c)
/-- Read by the second aggregation (after the second matrix product). -/
theorem src5 : W5 m ρ c (Proc.devRef .tc main_v3) = Cert.ReferenceIdeal.Read.val_main_v3 (F := Ideal) (m ((c : Thread nD τ).loc main_arg1)) :=
  over_region2 m ρ c main_v3 (by decide) (over_region1 m ρ c main_v3 (by decide)
    (over_host1 m ρ c main_v3 (by after_results_simp <;> rfl) (src2 m ρ c)))
/-- Read by the first aggregation (after the first matrix product). -/
theorem dst2 : W2 m ρ c (Proc.devRef .tc main_v6) = Cert.ReferenceIdeal.Read.val_main_v6 (F := Ideal) (m ((c : Thread nD τ).loc main_arg1)) :=
  over_region0 m ρ c main_v6 (by decide) (dst1 m ρ c)
/-- Read by the second aggregation (after the second matrix product). -/
theorem dst5 : W5 m ρ c (Proc.devRef .tc main_v6) = Cert.ReferenceIdeal.Read.val_main_v6 (F := Ideal) (m ((c : Thread nD τ).loc main_arg1)) :=
  over_region2 m ρ c main_v6 (by decide) (over_region1 m ρ c main_v6 (by decide)
    (over_host1 m ρ c main_v6 (by after_results_simp <;> rfl) (dst2 m ρ c)))
/-- Read by the first aggregation (after the first matrix product). -/
theorem norm2 : W2 m ρ c (Proc.devRef .tc main_v26) = Cert.ReferenceIdeal.Read.val_main_v27 (F := Ideal) (m ((c : Thread nD τ).loc main_arg1)) :=
  over_region0 m ρ c main_v26 (by decide) (norm1 m ρ c)
/-- Read by the second aggregation (after the second matrix product). -/
theorem norm5 : W5 m ρ c (Proc.devRef .tc main_v26) = Cert.ReferenceIdeal.Read.val_main_v27 (F := Ideal) (m ((c : Thread nD τ).loc main_arg1)) :=
  over_region2 m ρ c main_v26 (by decide) (over_region1 m ρ c main_v26 (by decide)
    (over_host1 m ρ c main_v26 (by after_results_simp <;> rfl) (norm2 m ρ c)))

/-- The first bias, read by the host operations after the first matrix product. -/
theorem arg4_2 : W2 m ρ c (Proc.devRef .tc main_arg4) = m ((c : Thread nD τ).loc main_arg4) :=
  over_region0 m ρ c main_arg4 (by decide) (arg4_1 m ρ c)
/-- The second weight matrix, read by the second matrix product. -/
theorem arg5_4 : W4 m ρ c (Proc.devRef .tc main_arg5) = m ((c : Thread nD τ).loc main_arg5) :=
  over_region1 m ρ c main_arg5 (by decide) (over_host1 m ρ c main_arg5 (by after_results_simp <;> rfl)
    (over_region0 m ρ c main_arg5 (by decide) (arg5_1 m ρ c)))
/-- The second bias, read by the host operations after the second matrix product. -/
theorem arg6_5 : W5 m ρ c (Proc.devRef .tc main_arg6) = m ((c : Thread nD τ).loc main_arg6) :=
  over_region2 m ρ c main_arg6 (by decide) (over_region1 m ρ c main_arg6 (by decide)
    (over_host1 m ρ c main_arg6 (by after_results_simp <;> rfl) (over_region0 m ρ c main_arg6 (by decide) (arg6_1 m ρ c))))
/-- The graph of each node, read by the host operations before the final linear layer. -/
theorem arg2_7 : W7 m ρ c (Proc.devRef .tc main_arg2) = m ((c : Thread nD τ).loc main_arg2) :=
  over_region3 m ρ c main_arg2 (by decide) (over_host3 m ρ c main_arg2 (by after_results_simp <;> rfl)
    (over_region2 m ρ c main_arg2 (by decide) (over_region1 m ρ c main_arg2 (by decide)
      (over_host1 m ρ c main_arg2 (by after_results_simp <;> rfl) (over_region0 m ρ c main_arg2 (by decide) (arg2_1 m ρ c))))))
/-- The last bias, read by the host operations before the final linear layer. -/
theorem arg8_7 : W7 m ρ c (Proc.devRef .tc main_arg8) = m ((c : Thread nD τ).loc main_arg8) :=
  over_region3 m ρ c main_arg8 (by decide) (over_host3 m ρ c main_arg8 (by after_results_simp <;> rfl)
    (over_region2 m ρ c main_arg8 (by decide) (over_region1 m ρ c main_arg8 (by decide)
      (over_host1 m ρ c main_arg8 (by after_results_simp <;> rfl) (over_region0 m ρ c main_arg8 (by decide) (arg8_1 m ρ c))))))
/-- The last weight matrix, read by the final linear layer. -/
theorem arg7_8 : W8 m ρ c (Proc.devRef .tc main_arg7) = m ((c : Thread nD τ).loc main_arg7) :=
  over_host4 m ρ c main_arg7 (by after_results_simp <;> rfl)
    (over_region3 m ρ c main_arg7 (by decide) (over_host3 m ρ c main_arg7 (by after_results_simp <;> rfl)
      (over_region2 m ρ c main_arg7 (by decide) (over_region1 m ρ c main_arg7 (by decide)
        (over_host1 m ρ c main_arg7 (by after_results_simp <;> rfl) (over_region0 m ρ c main_arg7 (by decide) (arg7_1 m ρ c)))))))

end Cert.KernelIdeal.Fold

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibPoint.lean ====
/-
  One entry of a row block of a matrix product. If a block holds rows of a tall matrix A (its row p is row a of A)
  and the whole right factor B, then entry (p, q) of the matrix unit's product of the block with B, started from a
  zero accumulator, is entry (a, q) of the host's product A·B: both are the sum over c of A (a, c) * B (c, q).
  At the ideal values a change of float format is the identity, so the operands' element formats are free.
-/
import proofs.«177811_j28681791603240_1_alg».proof.Proof.LibDot

noncomputable section

namespace Cert.LibPoint

open Idealize.ShloMosaic Idealize.ShloMosaic.ValueIdx
open scoped BigOperators

variable {M m k n : Nat} {φ₁ φ₂ ψ₁ ψ₂ : FTy}

/-- Entry (p, q) of the block product is entry (a, q) of the whole product, when row p of the block is row a of A
    and the right factor is read whole. -/
theorem block_product_entry
    (wA : DotDims.WF ⟨2, ![M, k]⟩ ⟨2, ![k, n]⟩ ⟨2, ![M, n]⟩ [1] [0] [0] [1] [] [])
    (wb : DotDims.WF ⟨2, ![m, k]⟩ ⟨2, ![k, n]⟩ ⟨2, ![m, n]⟩ [1] [0] [0] [1] [] [])
    (precA precb : Option ContractPrecision)
    (A : FVec Ideal ⟨2, ![M, k]⟩ φ₁) (B : FVec Ideal ⟨2, ![k, n]⟩ φ₂)
    (x : FVec Ideal ⟨2, ![m, k]⟩ ψ₁) (y : FVec Ideal ⟨2, ![k, n]⟩ ψ₂)
    (p : Fin m) (q : Fin n) (a : Fin M)
    (hx : ∀ c : Fin k, x (ix2 p c) = A (ix2 a c)) (hy : ∀ c : Fin k, y (ix2 c q) = B (ix2 c q)) :
    matmul (LibDot.dims wb) precb x y (constant ⟨2, ![m, n]⟩ .f32 0x00000000#32) (ix2 p q)
      = Host.dotGeneral (LibDot.dims wA) precA A B (ix2 a q) := by
  rw [LibDot.matmul_zero_apply, LibDot.dotGeneral_apply]
  exact Finset.sum_congr rfl fun c _ => by rw [hx c, hy c]

end Cert.LibPoint
-- ==== Proof.Region0.lean ====
/-
  Region 0 of the kernel program: a matrix product computed in row blocks. The left array is 100000 × 128 and is
  read 5000 rows at a time (20 grid points; point t reads rows 5000·t … 5000·t + 4999); the right factor is
  128 × 128 and is read whole at every point; the output array is 100000 × 128 and point t writes its rows
  5000·t … 5000·t + 4999. The theorem `final` says the output array after the region is the host's product of the
  two WHOLE arrays as the region found them.

  The argument: (1) the block index maps, decided over the 20 points; (2) what point t writes back is block t of
  the whole product, entry by entry — row p of the block is row 5000·t + p of the left array, the right factor is
  the same at every point, and both sides are the same sum over the contracted coordinate; (3) every index of the
  output array lies in the block of the point t = row / 5000; (4) so the array, written block by block, is the
  whole product.
-/
import proofs.«177811_j28681791603240_1_alg».proof.Proof.Gen.KernelIdeal.Frame
import proofs.«177811_j28681791603240_1_alg».proof.Proof.LibPoint
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat Cfg Window)

-- the buffer contents when the region is entered
variable (V : (c : Dev nD) → (b : Ref sig .tc) → Buf (Elt Ideal) ((c : Thread nD τ).loc b))

/-- The body's one load and one store start at the corner (0, 0) of their buffers. -/
theorem hz : (![0, 0] : Fin 2 → Nat) = fun _ => 0 := funext fun a => by fin_cases a <;> rfl

/-- The block index maps over the grid: the left array's row block moves with the output's row block, both in
    column block 0; the right factor's block is always (0, 0); the output's row block index is at most 19. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every one of the 20 row blocks of the output array is some grid point's. -/
theorem idx_onto : ∀ q : Fin 20, ∃ t : Fin cfg0.N, win0_2.index t = ![q.val, 0] :=
  (by decide +kernel : ∀ q : Fin 20, ∃ t : Fin grid0.N, win0_2.index t = ![q.val, 0])

/-- One entry of the body's arithmetic. The body changes both operands' float format (the identity at the ideal
    values) and multiplies into a zero accumulator. So if row `p` of the left block is row `a` of a tall matrix `A`
    and the right block is `B` read whole, entry (p, q) of the result is entry (a, q) of the product A·B: both
    are the sum over c of A (a, c) * B (c, q). -/
theorem pay_entry (wA : DotDims.WF S100000x128 S128x128 S100000x128 [1] [0] [0] [1] [] [])
    (A : FVec Ideal S100000x128 .f32) (B : FVec Ideal S128x128 .f32)
    (x0 : Vec Ideal S5000x128 .f32) (x1 : Vec Ideal S128x128 .f32)
    (p : Fin 5000) (q : Fin 128) (a : Fin 100000)
    (hx : ∀ c : Fin 128, x0 (ix2 p c) = A (ix2 a c)) (hy : ∀ c : Fin 128, x1 (ix2 c q) = B (ix2 c q)) :
    k0_pay1 x0 x1 (ix2 p q) = Host.dotGeneral (F := Ideal) (Cert.LibDot.dims wA) none A B (ix2 a q) := by
  unfold k0_pay1
  exact Cert.LibPoint.block_product_entry wA dot_S5000x128_S128x128_S5000x128_1_0_0_1_n_n_wf none none A B
    (truncf .bf16 x0 bitsLt_bf16_f32) (truncf .bf16 x1 bitsLt_bf16_f32) p q a hx hy

/-- WHAT POINT `t` WRITES BACK is block `t` of the product of the whole arrays. Entry (p, q) of the block sits at
    row (block index) · 5000 + p, column q of the output array; row p of the left block is that same row of the
    left array (its block index equals the output's), and the right block is the right factor itself (block
    index (0, 0) of a one-block array). -/
theorem flushed_eq (c : Dev nD) (w : DotDims.WF S100000x128 S128x128 S100000x128 [1] [0] [0] [1] [] [])
    (t : Fin cfg0.N) :
    (dat0 (F := Ideal) V c).flushed 2 t = ((cfg0.win 2).blk t).view.read (Elt Ideal)
      (Host.dotGeneral (F := Ideal) (φ₁ := .f32) (φ₂ := .f32) (Cert.LibDot.dims w) none (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ValueIdx.ix2 p q := ⟨j 0, j 1, ValueIdx.eq_ix2 j⟩
  obtain ⟨e0, e1, e2, e3, e4, e5⟩ := idx_facts t
  have hp : p.val < 5000 := p.isLt
  have hq : q.val < 128 := q.isLt
  have ha : win0_2.index t (0 : Fin 2) * 5000 + p.val < 100000 := by omega
  -- where entry (p, q) of the output block sits in the output array
  have hemb : ((cfg0.win 2).blk t).view.emb (ix2 p q)
      = ix2 (⟨win0_2.index t (0 : Fin 2) * 5000 + p.val, ha⟩ : Fin 100000) q := by
    funext ax; apply Fin.ext
    match ax with
    | ⟨0, _⟩ =>
      show win0_2.index t (0 : Fin 2) * 5000 + 1 * p.val = win0_2.index t (0 : Fin 2) * 5000 + p.val
      omega
    | ⟨1, _⟩ =>
      show win0_2.index t (1 : Fin 2) * 128 + 1 * q.val = q.val
      omega
  show k0_pay1 (iblk0 V c 0 t) (iblk0 V c 1 t) (ix2 p q)
    = Host.dotGeneral (F := Ideal) (φ₁ := .f32) (φ₂ := .f32) (Cert.LibDot.dims w) none (V c main_arg0) (V c main_arg3)
        (((cfg0.win 2).blk t).view.emb (ix2 p q))
  rw [hemb]
  refine pay_entry w (V c main_arg0) (V c main_arg3) _ _ p q _ (fun c' => ?_) (fun c' => ?_)
  · -- row p of the left block, column c', is row (block index) · 5000 + p, column c' of the left array
    have hc : c'.val < 128 := c'.isLt
    show V c main_arg0 (((cfg0.win 0).blk t).view.emb (ix2 p c')) = _
    refine congrArg (V c main_arg0) ?_
    funext ax; apply Fin.ext
    match ax with
    | ⟨0, _⟩ =>
      show win0_0.index t (0 : Fin 2) * 5000 + 1 * p.val = win0_2.index t (0 : Fin 2) * 5000 + p.val
      omega
    | ⟨1, _⟩ =>
      show win0_0.index t (1 : Fin 2) * 128 + 1 * c'.val = c'.val
      omega
  · -- entry (c', q) of the right block is entry (c', q) of the right factor
    have hc : c'.val < 128 := c'.isLt
    show V c main_arg3 (((cfg0.win 1).blk t).view.emb (ix2 c' q)) = _
    refine congrArg (V c main_arg3) ?_
    funext ax; apply Fin.ext
    match ax with
    | ⟨0, _⟩ =>
      show win0_1.index t (0 : Fin 2) * 128 + 1 * c'.val = c'.val
      omega
    | ⟨1, _⟩ =>
      show win0_1.index t (1 : Fin 2) * 128 + 1 * q.val = q.val
      omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- Every index of the output array is written: row r lies in the block of the point whose block index is
    r / 5000 (since 5000 · (r / 5000) ≤ r < 5000 · (r / 5000) + 5000), and every block spans all 128 columns. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- THE OUTPUT ARRAY after the region is the host's product of the two whole arrays the region found: every point
    writes its block of that product, and the blocks cover the array. -/
theorem final (c : Dev nD) (w : DotDims.WF S100000x128 S128x128 S100000x128 [1] [0] [0] [1] [] []) :
    (dat0 (F := Ideal) V c).arrAt 2 cfg0.N
      = Host.dotGeneral (F := Ideal) (φ₁ := .f32) (φ₂ := .f32) (Cert.LibDot.dims w) none (V c main_arg0) (V c main_arg3) :=
  (dat0 V c).arrAt_eq_of_cover 2 _ (fun t _ => flushed_eq V c w t) cover

end Cert.KernelIdeal.Region0

end
-- ==== Proof.Region1.lean ====
/-
  REGION 1: the bias-and-rectify kernel, as one whole-array function.

  The kernel walks the 100000×128 array in 20 row blocks of 5000 rows. At each block it adds the one bias row
  (a 1×128 array, the same at every point) to every row of the block and takes the maximum with zero. The output's
  blocks tile the output array, so after the region the output array holds, at every entry (a, q),
  max (A (a, q) + B (0, q)) 0 — which is the reference's spelling: the bias row spread over the rows, added, and
  the maximum with a splat of the zero word.
-/
import proofs.«177811_j28681791603240_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The two sides at one entry -/

/-- The zero offsets of a whole-block access, as the constant function. -/
theorem hz : (![0, 0] : Fin 2 → Nat) = fun _ => 0 := funext fun a => by fin_cases a <;> rfl

/-- The whole-array function: the bias row spread over the rows, added, then the maximum with the splat zero. -/
abbrev G (h2 : S1x128.BroadcastsInDim S100000x128 (![0, 1] : Fin 2 → Fin S100000x128.rank))
    (h0 : S_.BroadcastsInDim S100000x128 (![] : Fin 0 → Fin S100000x128.rank))
    (A : Vec Ideal S100000x128 .f32) (B : Vec Ideal S1x128 .f32) : FVec Ideal S100000x128 .f32 :=
  maximumf (addf A (broadcastInDim S100000x128 ![0, 1] h2 B))
    (broadcastInDim S100000x128 ![] h0 (constant (F := Ideal) S_ .f32 0x00000000#32))

/-- Entry `i` of the whole-array function, `q` being `i`'s column: max (A i + B (0, q)) 0-word. The spread of the
    bias row reads row 0 (the source's row axis has one entry) at the column of `i`; the splat reads its one value. -/
theorem G_apply (h2 : S1x128.BroadcastsInDim S100000x128 (![0, 1] : Fin 2 → Fin S100000x128.rank))
    (h0 : S_.BroadcastsInDim S100000x128 (![] : Fin 0 → Fin S100000x128.rank))
    (A : Vec Ideal S100000x128 .f32) (B : Vec Ideal S1x128 .f32) (i : S100000x128.Idx) (q : Fin 128)
    (hq : (i 1).val = q.val) :
    G h2 h0 A B i = max (A i + B (ix2 (0 : Fin 1) q)) (Ideal.ofBits .f32 0x00000000#32) := by
  have e1 : broadcastInDim S100000x128 ![0, 1] h2 B i = B (ix2 (0 : Fin 1) q) :=
    broadcastInDim_apply ![0, 1] h2 B i (ix2 (0 : Fin 1) q) fun a => by
      match a with
      | ⟨0, _⟩ => rfl
      | ⟨1, _⟩ => exact hq.symm
  have e2 : broadcastInDim S100000x128 ![] h0 (constant (F := Ideal) S_ .f32 0x00000000#32) i
      = Ideal.ofBits .f32 0x00000000#32 :=
    broadcastInDim_apply ![] h0 (constant (F := Ideal) S_ .f32 0x00000000#32) i ix0 fun a => a.elim0
  show max (A i + broadcastInDim S100000x128 ![0, 1] h2 B i)
      (broadcastInDim S100000x128 ![] h0 (constant (F := Ideal) S_ .f32 0x00000000#32) i) = _
  rw [e1, e2]

/-- Entry (p, q) of what the body stores, from the blocks it loaded: the two casts to the same shape are the
    identity, the row broadcast reads the bias block's one row at column q, the scalar splat reads its value. -/
theorem pay_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [shapeCast_self, shapeCast_self]
  exact congrArg (fun z => max (x0 (ix2 p q) + z) (Ideal.ofBits .f32 0x00000000#32))
    (broadcastTo_1b_ab_apply x1 broadcasts_S1x128_S5000x128 p q)

/-! ## The index maps over the grid -/

/-- The printed index maps, decided over the 20 grid points: the input row block moves with the output row block,
    the bias window stays at block (0, 0), and the output's block index is (row block ≤ 19, 0). -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) ≤ 19
    ∧ win1_2.index t (1 : Fin 2) = 0 :=
  (by decide +kernel : ∀ t : Fin grid1.N, _)

/-- Every one of the 20 row blocks is some grid point's output block. -/
theorem idx_onto : ∀ r : Fin 20, ∃ t : Fin cfg1.N, win1_2.index t = ![r.val, 0] :=
  (by decide +kernel : ∀ r : Fin 20, ∃ t : Fin grid1.N, win1_2.index t = ![r.val, 0])

/-! ## What a point writes back -/

/-- WHAT POINT `t` WRITES BACK is block `t` of the whole-array function of the arrays the region found. Entry (p, q)
    of the stored block is max (a-block (p, q) + bias-block (0, q)) 0; the a-block's entry sits in its array where
    the output block's entry sits in the output array (same block index, same size), and the bias block is the whole
    bias array, so both sides read A at row block·5000 + p, column q, and B at (0, q). -/
theorem flushed_eq (h2 : S1x128.BroadcastsInDim S100000x128 (![0, 1] : Fin 2 → Fin S100000x128.rank))
    (h0 : S_.BroadcastsInDim S100000x128 (![] : Fin 0 → Fin S100000x128.rank)) (c : Dev nD) (t : Fin cfg1.N) :
    (dat1 (F := Ideal) V c).flushed 2 t
      = ((cfg1.win 2).blk t).view.read (Elt Ideal) (G h2 h0 (V c main_v40) (V c main_v41)) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
      = G h2 h0 (V c main_v40) (V c main_v41) (((cfg1.win 2).blk t).view.emb (ix2 p q))
  have hcol : ((((cfg1.win 2).blk t).view.emb (ix2 p q)) 1).val = q.val := by
    show win1_2.index t (1 : Fin 2) * 128 + 1 * q.val = q.val
    omega
  rw [pay_apply, G_apply h2 h0 _ _ _ q hcol]
  have r0 : iblk1 V c 0 t (ix2 p q) = V c main_v40 (((cfg1.win 0).blk t).view.emb (ix2 p q)) := rfl
  have r1 : iblk1 V c 1 t (ix2 (0 : Fin 1) q) = V c main_v41 (((cfg1.win 1).blk t).view.emb (ix2 (0 : Fin 1) q)) := rfl
  have h0' : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1' : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  rw [r0, r1, h0', h1']

/-! ## The output's blocks tile the array -/

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- Every entry (a, q) of the output array is in the block of the point whose row block is a / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-! ## The output array after the region -/

/-- THE OUTPUT ARRAY after the region is the reference's whole-array term of the arrays the region found. -/
theorem final (c : Dev nD)
    (h2 : S1x128.BroadcastsInDim S100000x128 (![0, 1] : Fin 2 → Fin S100000x128.rank))
    (h0 : S_.BroadcastsInDim S100000x128 (![] : Fin 0 → Fin S100000x128.rank)) :
    (dat1 (F := Ideal) V c).arrAt 2 cfg1.N
      = maximumf (addf (V c main_v40) (broadcastInDim S100000x128 ![0, 1] h2 (V c main_v41)))
          (broadcastInDim S100000x128 ![] h0 (constant (F := Ideal) S_ .f32 0x00000000#32)) :=
  (dat1 (F := Ideal) V c).arrAt_eq_of_cover 2 (G h2 h0 (V c main_v40) (V c main_v41))
    (fun t _ => flushed_eq V h2 h0 c t) (cover)

end Cert.KernelIdeal.Region1

end
-- ==== Proof.Region2.lean ====
/-
  Region 2 of the kernel program: a matrix product computed in row blocks. The left array is 100000 × 128 and is
  read 5000 rows at a time (20 grid points; point t reads rows 5000·t … 5000·t + 4999); the right factor is
  128 × 128 and is read whole at every point; the output array is 100000 × 128 and point t writes its rows
  5000·t … 5000·t + 4999. The theorem `final` says the output array after the region is the host's product of the
  two WHOLE arrays as the region found them.

  The argument: (1) the block index maps, decided over the 20 points; (2) what point t writes back is block t of
  the whole product, entry by entry — row p of the block is row 5000·t + p of the left array, the right factor is
  the same at every point, and both sides are the same sum over the contracted coordinate; (3) every index of the
  output array lies in the block of the point t = row / 5000; (4) so the array, written block by block, is the
  whole product.
-/
import proofs.«177811_j28681791603240_1_alg».proof.Proof.Gen.KernelIdeal.Frame
import proofs.«177811_j28681791603240_1_alg».proof.Proof.LibPoint
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat Cfg Window)

-- the buffer contents when the region is entered
variable (V : (c : Dev nD) → (b : Ref sig .tc) → Buf (Elt Ideal) ((c : Thread nD τ).loc b))

/-- The body's one load and one store start at the corner (0, 0) of their buffers. -/
theorem hz : (![0, 0] : Fin 2 → Nat) = fun _ => 0 := funext fun a => by fin_cases a <;> rfl

/-- The block index maps over the grid: the left array's row block moves with the output's row block, both in
    column block 0; the right factor's block is always (0, 0); the output's row block index is at most 19. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 19
    ∧ win2_2.index t (1 : Fin 2) = 0 :=
  (by decide +kernel : ∀ t : Fin grid2.N, _)

/-- Every one of the 20 row blocks of the output array is some grid point's. -/
theorem idx_onto : ∀ q : Fin 20, ∃ t : Fin cfg2.N, win2_2.index t = ![q.val, 0] :=
  (by decide +kernel : ∀ q : Fin 20, ∃ t : Fin grid2.N, win2_2.index t = ![q.val, 0])

/-- One entry of the body's arithmetic. The body first recasts the left block to its own shape (the identity),
    then changes both operands' float format (the identity at the ideal values) and multiplies into a zero
    accumulator. So if row `p` of the left block is row `a` of a tall matrix `A` and the right block is `B` read
    whole, entry (p, q) of the result is entry (a, q) of the product A·B: both are the sum over c of
    A (a, c) * B (c, q). -/
theorem pay_entry (wA : DotDims.WF S100000x128 S128x128 S100000x128 [1] [0] [0] [1] [] [])
    (A : FVec Ideal S100000x128 .f32) (B : FVec Ideal S128x128 .f32)
    (x0 : Vec Ideal S5000x128 .f32) (x1 : Vec Ideal S128x128 .f32)
    (p : Fin 5000) (q : Fin 128) (a : Fin 100000)
    (hx : ∀ c : Fin 128, x0 (ix2 p c) = A (ix2 a c)) (hy : ∀ c : Fin 128, x1 (ix2 c q) = B (ix2 c q)) :
    k2_pay1 x0 x1 (ix2 p q) = Host.dotGeneral (F := Ideal) (Cert.LibDot.dims wA) none A B (ix2 a q) := by
  unfold k2_pay1
  rw [shapeCast_self x0 shapeCasts_S5000x128_S5000x128]
  exact Cert.LibPoint.block_product_entry wA dot_S5000x128_S128x128_S5000x128_1_0_0_1_n_n_wf none none A B
    (truncf .bf16 x0 bitsLt_bf16_f32) (truncf .bf16 x1 bitsLt_bf16_f32) p q a hx hy

/-- WHAT POINT `t` WRITES BACK is block `t` of the product of the whole arrays. Entry (p, q) of the block sits at
    row (block index) · 5000 + p, column q of the output array; row p of the left block is that same row of the
    left array (its block index equals the output's), and the right block is the right factor itself (block
    index (0, 0) of a one-block array). -/
theorem flushed_eq (c : Dev nD) (w : DotDims.WF S100000x128 S128x128 S100000x128 [1] [0] [0] [1] [] [])
    (t : Fin cfg2.N) :
    (dat2 (F := Ideal) V c).flushed 2 t = ((cfg2.win 2).blk t).view.read (Elt Ideal)
      (Host.dotGeneral (F := Ideal) (φ₁ := .f32) (φ₂ := .f32) (Cert.LibDot.dims w) none (V c main_v42) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  obtain ⟨p, q, rfl⟩ : ∃ (p : Fin 5000) (q : Fin 128), j = ValueIdx.ix2 p q := ⟨j 0, j 1, ValueIdx.eq_ix2 j⟩
  obtain ⟨e0, e1, e2, e3, e4, e5⟩ := idx_facts t
  have hp : p.val < 5000 := p.isLt
  have hq : q.val < 128 := q.isLt
  have ha : win2_2.index t (0 : Fin 2) * 5000 + p.val < 100000 := by omega
  -- where entry (p, q) of the output block sits in the output array
  have hemb : ((cfg2.win 2).blk t).view.emb (ix2 p q)
      = ix2 (⟨win2_2.index t (0 : Fin 2) * 5000 + p.val, ha⟩ : Fin 100000) q := by
    funext ax; apply Fin.ext
    match ax with
    | ⟨0, _⟩ =>
      show win2_2.index t (0 : Fin 2) * 5000 + 1 * p.val = win2_2.index t (0 : Fin 2) * 5000 + p.val
      omega
    | ⟨1, _⟩ =>
      show win2_2.index t (1 : Fin 2) * 128 + 1 * q.val = q.val
      omega
  show k2_pay1 (iblk2 V c 0 t) (iblk2 V c 1 t) (ix2 p q)
    = Host.dotGeneral (F := Ideal) (φ₁ := .f32) (φ₂ := .f32) (Cert.LibDot.dims w) none (V c main_v42) (V c main_arg5)
        (((cfg2.win 2).blk t).view.emb (ix2 p q))
  rw [hemb]
  refine pay_entry w (V c main_v42) (V c main_arg5) _ _ p q _ (fun c' => ?_) (fun c' => ?_)
  · -- row p of the left block, column c', is row (block index) · 5000 + p, column c' of the left array
    have hc : c'.val < 128 := c'.isLt
    show V c main_v42 (((cfg2.win 0).blk t).view.emb (ix2 p c')) = _
    refine congrArg (V c main_v42) ?_
    funext ax; apply Fin.ext
    match ax with
    | ⟨0, _⟩ =>
      show win2_0.index t (0 : Fin 2) * 5000 + 1 * p.val = win2_2.index t (0 : Fin 2) * 5000 + p.val
      omega
    | ⟨1, _⟩ =>
      show win2_0.index t (1 : Fin 2) * 128 + 1 * c'.val = c'.val
      omega
  · -- entry (c', q) of the right block is entry (c', q) of the right factor
    have hc : c'.val < 128 := c'.isLt
    show V c main_arg5 (((cfg2.win 1).blk t).view.emb (ix2 c' q)) = _
    refine congrArg (V c main_arg5) ?_
    funext ax; apply Fin.ext
    match ax with
    | ⟨0, _⟩ =>
      show win2_1.index t (0 : Fin 2) * 128 + 1 * c'.val = c'.val
      omega
    | ⟨1, _⟩ =>
      show win2_1.index t (1 : Fin 2) * 128 + 1 * q.val = q.val
      omega

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v43).slice (win2_2.rect t)).set ↔ _
  rw [View.set_slice_whole, Rect.mem_set_unit]
  exact Iff.rfl

/-- Every index of the output array is written: row r lies in the block of the point whose block index is
    r / 5000 (since 5000 · (r / 5000) ≤ r < 5000 · (r / 5000) + 5000), and every block spans all 128 columns. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- THE OUTPUT ARRAY after the region is the host's product of the two whole arrays the region found: every point
    writes its block of that product, and the blocks cover the array. -/
theorem final (c : Dev nD) (w : DotDims.WF S100000x128 S128x128 S100000x128 [1] [0] [0] [1] [] []) :
    (dat2 (F := Ideal) V c).arrAt 2 cfg2.N
      = Host.dotGeneral (F := Ideal) (φ₁ := .f32) (φ₂ := .f32) (Cert.LibDot.dims w) none (V c main_v42) (V c main_arg5) :=
  (dat2 V c).arrAt_eq_of_cover 2 _ (fun t _ => flushed_eq V c w t) cover

end Cert.KernelIdeal.Region2

end
-- ==== Proof.Region3.lean ====
/-
  REGION 3: the bias-and-rectify kernel, as one whole-array function.

  The kernel walks the 100000×128 array in 20 row blocks of 5000 rows. At each block it adds the one bias row
  (a 1×128 array, the same at every point) to every row of the block and takes the maximum with zero. The output's
  blocks tile the output array, so after the region the output array holds, at every entry (a, q),
  max (A (a, q) + B (0, q)) 0 — which is the reference's spelling: the bias row spread over the rows, added, and
  the maximum with a splat of the zero word.
-/
import proofs.«177811_j28681791603240_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The two sides at one entry -/

/-- The zero offsets of a whole-block access, as the constant function. -/
theorem hz : (![0, 0] : Fin 2 → Nat) = fun _ => 0 := funext fun a => by fin_cases a <;> rfl

/-- The whole-array function: the bias row spread over the rows, added, then the maximum with the splat zero. -/
abbrev G (h2 : S1x128.BroadcastsInDim S100000x128 (![0, 1] : Fin 2 → Fin S100000x128.rank))
    (h0 : S_.BroadcastsInDim S100000x128 (![] : Fin 0 → Fin S100000x128.rank))
    (A : Vec Ideal S100000x128 .f32) (B : Vec Ideal S1x128 .f32) : FVec Ideal S100000x128 .f32 :=
  maximumf (addf A (broadcastInDim S100000x128 ![0, 1] h2 B))
    (broadcastInDim S100000x128 ![] h0 (constant (F := Ideal) S_ .f32 0x00000000#32))

/-- Entry `i` of the whole-array function, `q` being `i`'s column: max (A i + B (0, q)) 0-word. The spread of the
    bias row reads row 0 (the source's row axis has one entry) at the column of `i`; the splat reads its one value. -/
theorem G_apply (h2 : S1x128.BroadcastsInDim S100000x128 (![0, 1] : Fin 2 → Fin S100000x128.rank))
    (h0 : S_.BroadcastsInDim S100000x128 (![] : Fin 0 → Fin S100000x128.rank))
    (A : Vec Ideal S100000x128 .f32) (B : Vec Ideal S1x128 .f32) (i : S100000x128.Idx) (q : Fin 128)
    (hq : (i 1).val = q.val) :
    G h2 h0 A B i = max (A i + B (ix2 (0 : Fin 1) q)) (Ideal.ofBits .f32 0x00000000#32) := by
  have e1 : broadcastInDim S100000x128 ![0, 1] h2 B i = B (ix2 (0 : Fin 1) q) :=
    broadcastInDim_apply ![0, 1] h2 B i (ix2 (0 : Fin 1) q) fun a => by
      match a with
      | ⟨0, _⟩ => rfl
      | ⟨1, _⟩ => exact hq.symm
  have e2 : broadcastInDim S100000x128 ![] h0 (constant (F := Ideal) S_ .f32 0x00000000#32) i
      = Ideal.ofBits .f32 0x00000000#32 :=
    broadcastInDim_apply ![] h0 (constant (F := Ideal) S_ .f32 0x00000000#32) i ix0 fun a => a.elim0
  show max (A i + broadcastInDim S100000x128 ![0, 1] h2 B i)
      (broadcastInDim S100000x128 ![] h0 (constant (F := Ideal) S_ .f32 0x00000000#32) i) = _
  rw [e1, e2]

/-- Entry (p, q) of what the body stores, from the blocks it loaded: the two casts to the same shape are the
    identity, the row broadcast reads the bias block's one row at column q, the scalar splat reads its value. -/
theorem pay_apply (x0 : Vec Ideal S5000x128 .f32) (x1 : Vec Ideal S1x128 .f32) (p : Fin 5000) (q : Fin 128) :
    k3_pay1 x0 x1 (ix2 p q) = max (x0 (ix2 p q) + x1 (ix2 (0 : Fin 1) q)) (Ideal.ofBits .f32 0x00000000#32) := by
  unfold k3_pay1
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [shapeCast_self, shapeCast_self]
  exact congrArg (fun z => max (x0 (ix2 p q) + z) (Ideal.ofBits .f32 0x00000000#32))
    (broadcastTo_1b_ab_apply x1 broadcasts_S1x128_S5000x128 p q)

/-! ## The index maps over the grid -/

/-- The printed index maps, decided over the 20 grid points: the input row block moves with the output row block,
    the bias window stays at block (0, 0), and the output's block index is (row block ≤ 19, 0). -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) ≤ 19
    ∧ win3_2.index t (1 : Fin 2) = 0 :=
  (by decide +kernel : ∀ t : Fin grid3.N, _)

/-- Every one of the 20 row blocks is some grid point's output block. -/
theorem idx_onto : ∀ r : Fin 20, ∃ t : Fin cfg3.N, win3_2.index t = ![r.val, 0] :=
  (by decide +kernel : ∀ r : Fin 20, ∃ t : Fin grid3.N, win3_2.index t = ![r.val, 0])

/-! ## What a point writes back -/

/-- WHAT POINT `t` WRITES BACK is block `t` of the whole-array function of the arrays the region found. Entry (p, q)
    of the stored block is max (a-block (p, q) + bias-block (0, q)) 0; the a-block's entry sits in its array where
    the output block's entry sits in the output array (same block index, same size), and the bias block is the whole
    bias array, so both sides read A at row block·5000 + p, column q, and B at (0, q). -/
theorem flushed_eq (h2 : S1x128.BroadcastsInDim S100000x128 (![0, 1] : Fin 2 → Fin S100000x128.rank))
    (h0 : S_.BroadcastsInDim S100000x128 (![] : Fin 0 → Fin S100000x128.rank)) (c : Dev nD) (t : Fin cfg3.N) :
    (dat3 (F := Ideal) V c).flushed 2 t
      = ((cfg3.win 2).blk t).view.read (Elt Ideal) (G h2 h0 (V c main_v56) (V c main_v57)) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
      = G h2 h0 (V c main_v56) (V c main_v57) (((cfg3.win 2).blk t).view.emb (ix2 p q))
  have hcol : ((((cfg3.win 2).blk t).view.emb (ix2 p q)) 1).val = q.val := by
    show win3_2.index t (1 : Fin 2) * 128 + 1 * q.val = q.val
    omega
  rw [pay_apply, G_apply h2 h0 _ _ _ q hcol]
  have r0 : iblk3 V c 0 t (ix2 p q) = V c main_v56 (((cfg3.win 0).blk t).view.emb (ix2 p q)) := rfl
  have r1 : iblk3 V c 1 t (ix2 (0 : Fin 1) q) = V c main_v57 (((cfg3.win 1).blk t).view.emb (ix2 (0 : Fin 1) q)) := rfl
  have h0' : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1' : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  rw [r0, r1, h0', h1']

/-! ## The output's blocks tile the array -/

/-- An index of the output array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v58).slice (win3_2.rect t)).set ↔ _
  rw [View.set_slice_whole, Rect.mem_set_unit]
  exact Iff.rfl

/-- Every entry (a, q) of the output array is in the block of the point whose row block is a / 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-! ## The output array after the region -/

/-- THE OUTPUT ARRAY after the region is the reference's whole-array term of the arrays the region found. -/
theorem final (c : Dev nD)
    (h2 : S1x128.BroadcastsInDim S100000x128 (![0, 1] : Fin 2 → Fin S100000x128.rank))
    (h0 : S_.BroadcastsInDim S100000x128 (![] : Fin 0 → Fin S100000x128.rank)) :
    (dat3 (F := Ideal) V c).arrAt 2 cfg3.N
      = maximumf (addf (V c main_v56) (broadcastInDim S100000x128 ![0, 1] h2 (V c main_v57)))
          (broadcastInDim S100000x128 ![] h0 (constant (F := Ideal) S_ .f32 0x00000000#32)) :=
  (dat3 (F := Ideal) V c).arrAt_eq_of_cover 2 (G h2 h0 (V c main_v56) (V c main_v57))
    (fun t _ => flushed_eq V h2 h0 c t) (cover)

end Cert.KernelIdeal.Region3

end
-- ==== Proof.Region4.lean ====
/-
  The last region: the final linear layer with relu, on one block that is the whole array.
  The grid has one point; each of the four windows has block index (0, 0) there and its block is its whole array
  (64×128 left factor X, 128×128 right factor W, 1×128 bias row B, 64×128 output). The body stores, once and over
  the whole block, max ((X·W) + B spread over the rows, 0-word), the product taken after a change of float format
  that is the identity at the ideal values. So after the region the output array holds, at (a, q),
  max ((∑ c, X (a, c) * W (c, q)) + B (0, q), 0-word) — the reference's relu (X @ W + B), whose bias row is spread by
  a broadcast along axes [0, 1] and whose zero is a splat of the zero word.
-/
import proofs.«177811_j28681791603240_1_alg».proof.Proof.Gen.KernelIdeal.Frame
import proofs.«177811_j28681791603240_1_alg».proof.Proof.LibPoint
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.SL.Sem Idealize.ShloMosaic.ValueIdx
open Idealize.ShloMosaic.Pipeline (Dat Cfg Window)

/-- The whole-array function the output ends holding: the product of the two matrices, plus the bias row spread
    over the rows, clipped below at the zero word. -/
abbrev G (w : DotDims.WF S64x128 S128x128 S64x128 [1] [0] [0] [1] [] [])
    (h2 : S1x128.BroadcastsInDim S64x128 (![0, 1] : Fin 2 → Fin S64x128.rank))
    (h0 : S_.BroadcastsInDim S64x128 (![] : Fin 0 → Fin S64x128.rank))
    (X : FVec Ideal S64x128 .f32) (Wt : FVec Ideal S128x128 .f32) (B : FVec Ideal S1x128 .f32) : FVec Ideal S64x128 .f32 :=
  maximumf (addf (Host.dotGeneral (F := Ideal) (φ₁ := .f32) (φ₂ := .f32) (Cert.LibDot.dims w) none X Wt)
        (broadcastInDim S64x128 ![0, 1] h2 B))
      (broadcastInDim S64x128 ![] h0 (constant (F := Ideal) S_ .f32 0x00000000#32))

/-- The printed record of the product's dimension numbers is the general one, by structure eta. -/
theorem dot_eq : (dot_S64x128_S128x128_S64x128_1_0_0_1_n_n : DotDims S64x128 S128x128 S64x128)
    = Cert.LibDot.dims dot_S64x128_S128x128_S64x128_1_0_0_1_n_n.wf := rfl

/-- Entry (p, q) of the body's arithmetic on whole arrays X, Wt, B is entry (p, q) of G: both are
    max ((∑ c, X (p, c) * Wt (c, q)) + B (0, q)) 0-word. -/
theorem pay_entry (w : DotDims.WF S64x128 S128x128 S64x128 [1] [0] [0] [1] [] [])
    (h2 : S1x128.BroadcastsInDim S64x128 (![0, 1] : Fin 2 → Fin S64x128.rank))
    (h0 : S_.BroadcastsInDim S64x128 (![] : Fin 0 → Fin S64x128.rank))
    (X : FVec Ideal S64x128 .f32) (Wt : FVec Ideal S128x128 .f32) (B : FVec Ideal S1x128 .f32)
    (p : Fin 64) (q : Fin 128) :
    k4_pay1 (F := Ideal) X Wt B (ix2 p q) = G w h2 h0 X Wt B (ix2 p q) := by
  unfold k4_pay1
  rw [shapeCast_self, shapeCast_self, dot_eq]
  have e1 := Cert.LibPoint.block_product_entry w dot_S64x128_S128x128_S64x128_1_0_0_1_n_n.wf none none X Wt
    (truncf .bf16 X bitsLt_bf16_f32) (truncf .bf16 Wt bitsLt_bf16_f32) p q p (fun _ => rfl) (fun _ => rfl)
  have e2 : broadcastTo S64x128 B broadcasts_S1x128_S64x128 (ix2 p q) = B (ix2 (0 : Fin 1) q) :=
    broadcastTo_1b_ab_apply B _ p q
  have e3 : broadcastInDim S64x128 ![0, 1] h2 B (ix2 p q) = B (ix2 (0 : Fin 1) q) := by
    refine broadcastInDim_apply _ h2 B (ix2 p q) (ix2 (0 : Fin 1) q) fun a => ?_
    match a with
    | ⟨0, _⟩ => rfl
    | ⟨1, _⟩ =>
      show q.val = if (128 : Nat) = 1 then 0 else q.val
      rw [if_neg (by decide)]
  have e4 : broadcastInDim S64x128 ![] h0 (constant (F := Ideal) S_ .f32 0x00000000#32) (ix2 p q)
      = FloatOps.ofBits .f32 0x00000000#32 :=
    broadcastInDim_apply _ h0 _ (ix2 p q) ix0 fun a => a.elim0
  show max (matmul (LibDot.dims _) none (truncf .bf16 X bitsLt_bf16_f32) (truncf .bf16 Wt bitsLt_bf16_f32)
          (constant S64x128 .f32 0x00000000#32) (ix2 p q) + broadcastTo S64x128 B broadcasts_S1x128_S64x128 (ix2 p q))
        (FloatOps.ofBits .f32 0x00000000#32)
      = max (Host.dotGeneral (F := Ideal) (φ₁ := .f32) (φ₂ := .f32) (Cert.LibDot.dims w) none X Wt (ix2 p q)
          + broadcastInDim S64x128 ![0, 1] h2 B (ix2 p q))
        (broadcastInDim S64x128 ![] h0 (constant (F := Ideal) S_ .f32 0x00000000#32) (ix2 p q))
  rw [e1, e2, e3, e4]

variable (V : (c : Dev nD) → (b : Ref sig .tc) → Buf (Elt Ideal) ((c : Thread nD τ).loc b))

theorem hz : (![0, 0] : Fin 2 → Nat) = fun _ => 0 := funext fun a => by fin_cases a <;> rfl

/-- Decided over the grid's one point: every window's block index is 0 on both axes. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The left factor's block at the point is its whole array: block index 0 on both axes, so an element's array
    coordinate is its coordinate in the block. -/
theorem iblk0_eq (c : Dev nD) (t : Fin cfg4.N) : iblk4 V c 0 t = V c main_v70 := by
  obtain ⟨e0, e1, -⟩ := idx_facts t
  funext j
  show V c main_v70 (((cfg4.win 0).blk t).view.emb j) = V c main_v70 j
  refine congrArg (V c main_v70) ?_
  funext a; apply Fin.ext
  match a with
  | ⟨0, _⟩ => show win4_0.index t (0 : Fin 2) * 64 + 1 * (j 0).val = (j 0).val; omega
  | ⟨1, _⟩ => show win4_0.index t (1 : Fin 2) * 128 + 1 * (j 1).val = (j 1).val; omega

/-- The right factor's block at the point is its whole array. -/
theorem iblk1_eq (c : Dev nD) (t : Fin cfg4.N) : iblk4 V c 1 t = V c main_arg7 := by
  obtain ⟨-, -, e0, e1, -⟩ := idx_facts t
  funext j
  show V c main_arg7 (((cfg4.win 1).blk t).view.emb j) = V c main_arg7 j
  refine congrArg (V c main_arg7) ?_
  funext a; apply Fin.ext
  match a with
  | ⟨0, _⟩ => show win4_1.index t (0 : Fin 2) * 128 + 1 * (j 0).val = (j 0).val; omega
  | ⟨1, _⟩ => show win4_1.index t (1 : Fin 2) * 128 + 1 * (j 1).val = (j 1).val; omega

/-- The bias row's block at the point is its whole array. -/
theorem iblk2_eq (c : Dev nD) (t : Fin cfg4.N) : iblk4 V c 2 t = V c main_v71 := by
  obtain ⟨-, -, -, -, e0, e1, -⟩ := idx_facts t
  funext j
  show V c main_v71 (((cfg4.win 2).blk t).view.emb j) = V c main_v71 j
  refine congrArg (V c main_v71) ?_
  funext a; apply Fin.ext
  match a with
  | ⟨0, _⟩ => show win4_2.index t (0 : Fin 2) * 1 + 1 * (j 0).val = (j 0).val; omega
  | ⟨1, _⟩ => show win4_2.index t (1 : Fin 2) * 128 + 1 * (j 1).val = (j 1).val; omega

/-- An element of the output's block at the point sits in the output array at its own coordinates. -/
theorem emb3_eq (t : Fin cfg4.N) (j : S64x128.Idx) : ((cfg4.win 3).blk t).view.emb j = j := by
  obtain ⟨-, -, -, -, -, -, e0, e1⟩ := idx_facts t
  funext a; apply Fin.ext
  match a with
  | ⟨0, _⟩ => show win4_3.index t (0 : Fin 2) * 64 + 1 * (j 0).val = (j 0).val; omega
  | ⟨1, _⟩ => show win4_3.index t (1 : Fin 2) * 128 + 1 * (j 1).val = (j 1).val; omega

/-- WHAT THE POINT WRITES BACK is its block of G of the arrays the region finds: the body's one whole-block store of
    its arithmetic on the three blocks, each block its whole array. -/
theorem flushed_eq (c : Dev nD) (t : Fin cfg4.N) (w : DotDims.WF S64x128 S128x128 S64x128 [1] [0] [0] [1] [] [])
    (h2 : S1x128.BroadcastsInDim S64x128 (![0, 1] : Fin 2 → Fin S64x128.rank))
    (h0 : S_.BroadcastsInDim S64x128 (![] : Fin 0 → Fin S64x128.rank)) :
    (dat4 (F := Ideal) V c).flushed 3 t
      = ((cfg4.win 3).blk t).view.read (Elt Ideal) (G w h2 h0 (V c main_v70) (V c main_arg7) (V c main_v71)) := by
  show (cfg4.win 3).cut (grid4.coords t) ((dat4 V c).after 3 t) = _
  rw [after4_3]
  unfold out4_3
  rw [View.canon_unit_zero hz]
  simp only [View.ld_unit_zero (S := S64x128) hz, View.ld_unit_zero (S := S128x128) hz, View.ld_unit_zero (S := S1x128) hz]
  rw [iblk0_eq, iblk1_eq, iblk2_eq]
  funext j
  obtain ⟨p, q, rfl⟩ : ∃ (p : Fin 64) (q : Fin 128), j = ix2 p q := ⟨j 0, j 1, eq_ix2 j⟩
  show k4_pay1 (F := Ideal) (V c main_v70) (V c main_arg7) (V c main_v71) (ix2 p q)
    = G w h2 h0 (V c main_v70) (V c main_arg7) (V c main_v71) (((cfg4.win 3).blk t).view.emb (ix2 p q))
  rw [emb3_eq]
  exact pay_entry w h2 h0 _ _ _ p q

/-- An index of the output array is in the point's block iff each coordinate is in the block's range on its axis. -/
theorem mem_blk (t : Fin cfg4.N) (i : S64x128.Idx) :
    i ∈ ((cfg4.win 3).blk t).view.set ↔ ∀ a : Fin 2, win4_3.index t a * S64x128.size a ≤ (i a).val ∧ (i a).val < win4_3.index t a * S64x128.size a + S64x128.size a := by
  show i ∈ ((View.whole main_v72).slice (win4_3.rect t)).set ↔ _
  rw [View.set_slice_whole, Rect.mem_set_unit]
  exact Iff.rfl

/-- The one point's block is the whole output array, so every index is covered. -/
theorem cover (i : S64x128.Idx) : ∃ t : Fin cfg4.N, (cfg4.win 3).flush t = true ∧ i ∈ ((cfg4.win 3).blk t).view.set := by
  obtain ⟨-, -, -, -, -, -, e0, e1⟩ := idx_facts t4_0
  refine ⟨t4_0, flush4_3 t4_0, ?_⟩
  rw [mem_blk]
  intro a
  have hi0 : (i 0).val < 64 := (i 0).isLt
  have hi1 : (i 1).val < 128 := (i 1).isLt
  match a with
  | ⟨0, _⟩ => show win4_3.index t4_0 (0 : Fin 2) * 64 ≤ (i 0).val ∧ (i 0).val < win4_3.index t4_0 (0 : Fin 2) * 64 + 64; omega
  | ⟨1, _⟩ => show win4_3.index t4_0 (1 : Fin 2) * 128 ≤ (i 1).val ∧ (i 1).val < win4_3.index t4_0 (1 : Fin 2) * 128 + 128; omega

/-- THE OUTPUT ARRAY after the region: relu of the product plus the bias row, as one function of the three arrays
    the region finds. -/
theorem final (c : Dev nD) (w : DotDims.WF S64x128 S128x128 S64x128 [1] [0] [0] [1] [] [])
    (h2 : S1x128.BroadcastsInDim S64x128 (![0, 1] : Fin 2 → Fin S64x128.rank))
    (h0 : S_.BroadcastsInDim S64x128 (![] : Fin 0 → Fin S64x128.rank)) :
    (dat4 (F := Ideal) V c).arrAt 3 cfg4.N
      = maximumf (addf (Host.dotGeneral (F := Ideal) (φ₁ := .f32) (φ₂ := .f32) (Cert.LibDot.dims w) none (V c main_v70) (V c main_arg7))
            (broadcastInDim S64x128 ![0, 1] h2 (V c main_v71)))
          (broadcastInDim S64x128 ![] h0 (constant (F := Ideal) S_ .f32 0x00000000#32)) :=
  (dat4 V c).arrAt_eq_of_cover 3 (G w h2 h0 (V c main_v70) (V c main_arg7) (V c main_v71))
    (fun t _ => flushed_eq V c t w h2 h0) cover

end Cert.KernelIdeal.Region4
-- ==== Proof.LibRow.lean ====
/-
  A vector laid out as a one-row matrix. Reshaping a length-n vector to shape 1×n and broadcasting it along a new
  leading axis of extent 1 are the same array: entry (0, q) is entry q of the vector.
-/
import Idealize.ShloMosaic.Lib.Pipeline.Value
import Idealize.ShloMosaic.Lib.ValueIdx

noncomputable section

namespace Cert.LibRow

open Idealize.ShloMosaic Idealize.ShloMosaic.ValueIdx

/-- The row-major reshape of a vector to one row is its broadcast along a new leading unit axis. -/
theorem reshape_row_eq_broadcast {n : Nat} {α : Type} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, q, rfl⟩ : ∃ (z : Fin 1) (q : Fin n), j = ix2 z q := ⟨j 0, j 1, eq_ix2 j⟩
  have hq := q.isLt
  have hz := z.isLt
  rw [shapeCast_apply x h (ix2 z q) (ix1 q) (by
    rw [Shape.rowMajor_val_one, Shape.rowMajor_val_two]
    show q.val = z.val * n + q.val
    have : z.val = 0 := by omega
    rw [this]; omega)]
  exact (broadcastInDim_apply ![1] h' x (ix2 z q) (ix1 q) (fun a => by
    match a with
    | ⟨0, _⟩ => show q.val = if n = 1 then 0 else q.val; split <;> omega)).symm

end Cert.LibRow
-- ==== Proof.Stages.lean ====
/-
  What the kernel program's buffers hold at the boundaries of its run, stage by stage, as the reference's stages.

  The idealized kernel program and the reference compute the same two-layer graph network in the same
  arrangement: per layer a matrix product, rows picked along the edges' source ends and scaled by the edge weights,
  a sum into the target ends, a bias and a rectifier; then the mean over each graph and a last linear layer with
  a rectifier. The kernel program does the three matrix products and the bias-and-rectifier passes in pipelined
  regions over row blocks (with the operands of a product narrowed to bf16 first, which at the ideal values changes
  nothing); everything else is the same host operations in both programs. So each region's output array is one of
  the reference's stages (a product of whole arrays; a whole-array bias and rectifier), each stretch of host
  operations carries stages to stages by the reference's own operations, and the kernel program's result array ends
  holding the reference's last stage of the same nine argument arrays.
-/
import proofs.«177811_j28681791603240_1_alg».proof.Proof.Fold
import proofs.«177811_j28681791603240_1_alg».proof.Proof.Region0
import proofs.«177811_j28681791603240_1_alg».proof.Proof.Region1
import proofs.«177811_j28681791603240_1_alg».proof.Proof.Region2
import proofs.«177811_j28681791603240_1_alg».proof.Proof.Region3
import proofs.«177811_j28681791603240_1_alg».proof.Proof.Region4
import proofs.«177811_j28681791603240_1_alg».proof.Proof.LibRow

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first matrix product: the node features times the first weight matrix, as one product of whole arrays. -/
theorem prod1 : W2 m ρ c (Proc.devRef .tc main_v27) = Cert.ReferenceIdeal.Read.val_main_v7 (F := Ideal) (m ((c : Thread nD τ).loc main_arg0)) (m ((c : Thread nD τ).loc main_arg3)) := by
  refine (W2_arr m ρ c 2).trans ?_
  refine (Region0.final (V1 m ρ) c Cert.ReferenceIdeal.Facts₀.dot_S100000x128_S128x128_S100000x128_1_0_0_1_n_n_wf).trans ?_
  dsimp only [V1]
  rw [Fold.arg0_1 m ρ c, Fold.arg3_1 m ρ c]
  rfl

/-- The first aggregation: the products' rows picked at the source ends, scaled by the edge weights and summed
    into the target ends — the same operations on the same stages as the reference's. -/
theorem agg1 : W3 m ρ c (Proc.devRef .tc main_v40) = Cert.ReferenceIdeal.Read.val_main_v40 (F := Ideal) (m ((c : Thread nD τ).loc main_arg0)) (m ((c : Thread nD τ).loc main_arg1)) (m ((c : Thread nD τ).loc main_arg3)) := by
  show StableHlo.after hostOps1 (W2 m ρ c) (Proc.devRef .tc main_v40) = _
  after_results_simp
  rw [prod1 m ρ c, Fold.src2 m ρ c, Fold.dst2 m ρ c, Fold.norm2 m ρ c]
  rfl

/-- The first bias as a one-row matrix: the kernel reshapes the vector, the reference broadcasts it along a new
    leading unit axis; the same array. -/
theorem bias1 : W3 m ρ c (Proc.devRef .tc main_v41) = Cert.ReferenceIdeal.Read.val_main_v41 (F := Ideal) (m ((c : Thread nD τ).loc main_arg4)) := by
  show StableHlo.after hostOps1 (W2 m ρ c) (Proc.devRef .tc main_v41) = _
  after_results_simp
  rw [Fold.arg4_2 m ρ c]
  exact Cert.LibRow.reshape_row_eq_broadcast _ _ _

/-- The first layer's output: the aggregate plus the bias row, rectified. -/
theorem layer1 : W4 m ρ c (Proc.devRef .tc main_v42) = Cert.ReferenceIdeal.Read.val_main_v44 (F := Ideal) (m ((c : Thread nD τ).loc main_arg0)) (m ((c : Thread nD τ).loc main_arg1)) (m ((c : Thread nD τ).loc main_arg3)) (m ((c : Thread nD τ).loc main_arg4)) := by
  refine (W4_arr m ρ c 2).trans ?_
  refine (Region1.final (V3 m ρ) c Cert.ReferenceIdeal.Facts₀.bcast_S1x128_S100000x128_0_1 Cert.ReferenceIdeal.Facts₀.bcast_S_S100000x128).trans ?_
  dsimp only [V3]
  rw [agg1 m ρ c, bias1 m ρ c]
  rfl

/-- The second matrix product. -/
theorem prod2 : W5 m ρ c (Proc.devRef .tc main_v43) = Cert.ReferenceIdeal.Read.val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ?_
  refine (Region2.final (V4 m ρ) c Cert.ReferenceIdeal.Facts₀.dot_S100000x128_S128x128_S100000x128_1_0_0_1_n_n_wf).trans ?_
  dsimp only [V4]
  rw [layer1 m ρ c, Fold.arg5_4 m ρ c]
  rfl

/-- The second aggregation. The reference computes the degrees and the edge weights a second time, by the same
    operations from the same edge list: the same array as the weights the kernel program kept. -/
theorem agg2 : W6 m ρ c (Proc.devRef .tc main_v56) = Cert.ReferenceIdeal.Read.val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v56) = _
  after_results_simp
  rw [prod2 m ρ c, Fold.src5 m ρ c, Fold.dst5 m ρ c, Fold.norm5 m ρ c]
  rfl

/-- The second bias as a one-row matrix. -/
theorem bias2 : W6 m ρ c (Proc.devRef .tc main_v57) = Cert.ReferenceIdeal.Read.val_main_v79 (F := Ideal) (m ((c : Thread nD τ).loc main_arg6)) := by
  show StableHlo.after hostOps3 (W5 m ρ c) (Proc.devRef .tc main_v57) = _
  after_results_simp
  rw [Fold.arg6_5 m ρ c]
  exact Cert.LibRow.reshape_row_eq_broadcast _ _ _

/-- The second layer's output. -/
theorem layer2 : W7 m ρ c (Proc.devRef .tc main_v58) = Cert.ReferenceIdeal.Read.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 2).trans ?_
  refine (Region3.final (V6 m ρ) c Cert.ReferenceIdeal.Facts₀.bcast_S1x128_S100000x128_0_1 Cert.ReferenceIdeal.Facts₀.bcast_S_S100000x128).trans ?_
  dsimp only [V6]
  rw [agg2 m ρ c, bias2 m ρ c]
  rfl

/-- The mean of the node outputs over each graph: the sums over the graph's nodes divided by max(count, 1). -/
theorem pooled : W8 m ρ c (Proc.devRef .tc main_v70) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W7 m ρ c) (Proc.devRef .tc main_v70) = _
  after_results_simp
  rw [layer2 m ρ c, Fold.arg2_7 m ρ c]
  rfl

/-- The last bias as a one-row matrix. -/
theorem bias3 : W8 m ρ c (Proc.devRef .tc main_v71) = Cert.ReferenceIdeal.Read.val_main_v96 (F := Ideal) (m ((c : Thread nD τ).loc main_arg8)) := by
  show StableHlo.after hostOps4 (W7 m ρ c) (Proc.devRef .tc main_v71) = _
  after_results_simp
  rw [Fold.arg8_7 m ρ c]
  exact Cert.LibRow.reshape_row_eq_broadcast _ _ _

/-- THE RESULT: the pooled rows times the last weight matrix, plus the bias row, rectified — the reference's
    last stage of the same nine argument arrays. -/
theorem result : W9 m ρ c (Proc.devRef .tc main_v72) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 3).trans ?_
  refine (Region4.final (V8 m ρ) c Cert.ReferenceIdeal.Facts₀.dot_S64x128_S128x128_S64x128_1_0_0_1_n_n_wf
    Cert.ReferenceIdeal.Facts₀.bcast_S1x128_S64x128_0_1 Cert.ReferenceIdeal.Facts₀.bcast_S_S64x128).trans ?_
  dsimp only [V8]
  rw [pooled m ρ c, Fold.arg7_8 m ρ c, bias3 m ρ c]
  rfl

end Cert.KernelIdeal.Stages

end
-- ==== Proof.lean ====
/-
  The certificate's claims for a two-layer graph convolution network with mean pooling and a final linear layer.

  Both programs compute, for node features X, an edge list with one self-loop per node appended (source ends s,
  target ends d), weights W1, W2, Wfc and biases b1, b2, bfc:
      deg(v)  = the number of edges with target end v,        w(e) = rsqrt(deg(s e)) * rsqrt(deg(d e)),
      layer(H, W, b)(v, ·) = max( (∑ over edges e with d e = v of (H W)(s e, ·) * w(e)) + b, 0 ),
      H2 = layer(layer(X, W1, b1), W2, b2),
      pooled(g, ·) = (∑ over nodes v of graph g of H2(v, ·)) / max(number of nodes of g, 1),
      result = max(pooled Wfc + bfc, 0).
  The kernel program computes the three matrix products (on operands narrowed to bf16, which at the ideal values is
  the identity) and the two whole-array bias-and-rectifier passes in pipelined regions over blocks of 5000 rows,
  and the last product, bias and rectifier in one block; the picks along the edges, the sums into the target ends,
  the degrees, the weights and the pooling are the same host operations in both programs, in the same order and
  grouping. No algebraic law is needed beyond reading a blocked matrix product as the product of the whole arrays,
  and nothing asks the inputs to be finite: the two results are one function of the arguments, stage by stage
  (Proof/Stages.lean; the regions' arrays in Proof/Region0.lean … Region4.lean; the buffers carried between the
  segments in Proof/Fold.lean; the kernel program's run with its result named in Proof/KRun.lean).
-/
import proofs.«177811_j28681791603240_1_alg».proof.Defs
import proofs.«177811_j28681791603240_1_alg».proof.Proof.Gen.Kernel
import proofs.«177811_j28681791603240_1_alg».proof.Proof.Gen.Kernel.Skeleton
import proofs.«177811_j28681791603240_1_alg».proof.Proof.Gen.Kernel.Launch
import proofs.«177811_j28681791603240_1_alg».proof.Proof.Gen.Kernel.Points
import proofs.«177811_j28681791603240_1_alg».proof.Proof.Gen.Kernel.Frame
import proofs.«177811_j28681791603240_1_alg».proof.Proof.Gen.KernelIdeal
import proofs.«177811_j28681791603240_1_alg».proof.Proof.Gen.KernelIdeal.Skeleton
import proofs.«177811_j28681791603240_1_alg».proof.Proof.Gen.KernelIdeal.Launch
import proofs.«177811_j28681791603240_1_alg».proof.Proof.Gen.KernelIdeal.Points
import proofs.«177811_j28681791603240_1_alg».proof.Proof.Gen.KernelIdeal.Frame
import proofs.«177811_j28681791603240_1_alg».proof.Proof.Gen.ReferenceIdeal
import proofs.«177811_j28681791603240_1_alg».proof.Proof.Gen.ReferenceIdeal.Run
import proofs.«177811_j28681791603240_1_alg».proof.Proof.Gen.ReferenceIdeal.Read
import proofs.«177811_j28681791603240_1_alg».proof.Proof.Gen.Pre_finite_inputs
import proofs.«177811_j28681791603240_1_alg».proof.Proof.KRun
import proofs.«177811_j28681791603240_1_alg».proof.Proof.Stages
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at the reference's last stage
    of the nine argument arrays: the kernel program by its run and the stage-by-stage reading of its boundaries,
    the reference by its run. -/
theorem algebraic : Cert.algebraic_KernelIdeal_ReferenceIdeal := by
  intro m ρ m' ρ' _ hagree
  refine ⟨fun c => Cert.ReferenceIdeal.Read.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Stages.result m ρ c), (h c).2⟩)
      (Cert.KernelIdeal.RunValue.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v99_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
